-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1000x2 : Shape := ⟨3, ![512, 1000, 2]⟩
abbrev S256x2 : Shape := ⟨2, ![256, 2]⟩
abbrev S256 : Shape := ⟨1, ![256]⟩
abbrev S_ : Shape := ⟨0, ![]⟩

class Facts : Prop where
  bcast_S_S512x1000x2 : S_.BroadcastsInDim S512x1000x2 (![] : Fin 0 → Fin S512x1000x2.rank)
  reducesTo_S512x1000x2_S_d0_1_2 : S512x1000x2.ReducesTo [0, 1, 2] S_
  h_S_ : 0 < S_.numel
  bcast_S_S256x2 : S_.BroadcastsInDim S256x2 (![] : Fin 0 → Fin S256x2.rank)
  reducesTo_S256x2_S_d0_1 : S256x2.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S512x1000x2 .f32) (main_arg1 : FVec F S256x2 .f32) (main_arg2 : FVec F S256 .f32) : IVec S_ 1 :=
  let main_v0 : FVec F S512x1000x2 .f32 := Host.absf main_arg0
  let main_cst : FVec F S_ .f32 := constant S_ .f32 0x7F800000#32
  let main_v1 : FVec F S512x1000x2 .f32 := broadcastInDim S512x1000x2 ![] bcast_S_S512x1000x2 main_cst
  let main_v2 : IVec S512x1000x2 1 := cmpf .olt main_v0 main_v1
  let main_c : IVec S_ 1 := constantI S_ 1 1#1
  let main_v3 : IVec S_ 1 := (fun x v => Host.reduce IntOp.andi x v reducesTo_S512x1000x2_S_d0_1_2 h_S_) main_v2 main_c
  let main_v4 : FVec F S256x2 .f32 := Host.absf main_arg1
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S512x1000x2 : Shape := ⟨3, ![512, 1000, 2]⟩
abbrev S256x2 : Shape := ⟨2, ![256, 2]⟩
abbrev S256 : Shape := ⟨1, ![256]⟩
abbrev S512000x2 : Shape := ⟨2, ![512000, 2]⟩
abbrev S2x256 : Shape := ⟨2, ![2, 256]⟩
abbrev S1x256 : Shape := ⟨2, ![1, 256]⟩
abbrev S512000x256 : Shape := ⟨2, ![512000, 256]⟩
abbrev S8000x2 : Shape := ⟨2, ![8000, 2]⟩
abbrev S8000x256 : Shape := ⟨2, ![8000, 256]⟩
abbrev S8000x1 : Shape := ⟨2, ![8000, 1]⟩
abbrev S512x1000x256 : Shape := ⟨3, ![512, 1000, 256]⟩

abbrev nBuf : Space → Nat
  | .hbm => 8
  | .vmem => 6
  | .smem => 0
  | _ => 0

abbrev bufTy : (tb : Table) → Fin (tcTables nBuf tb) → BufTy
  | .hbm, ⟨0, _⟩ => ⟨S512x1000x2, .f32⟩
  | .hbm, ⟨1, _⟩ => ⟨S256x2, .f32⟩
  | .hbm, ⟨2, _⟩ => ⟨S256, .f32⟩
  | .hbm, ⟨3, _⟩ => ⟨S512000x2, .f32⟩
  | .hbm, ⟨4, _⟩ => ⟨S2x256, .f32⟩
  | .hbm, ⟨5, _⟩ => ⟨S1x256, .f32⟩
  | .hbm, ⟨6, _⟩ => ⟨S512000x256, .f32⟩
  | .hbm, ⟨7, _⟩ => ⟨S512x1000x256, .f32⟩
  | .local _ .vmem, ⟨0, _⟩ => ⟨S8000x2, .f32⟩
  | .local _ .vmem, ⟨1, _⟩ => ⟨S8000x2, .f32⟩
  | .local _ .vmem, ⟨2, _⟩ => ⟨S2x256, .f32⟩
  | .local _ .vmem, ⟨3, _⟩ => ⟨S1x256, .f32⟩
  | .local _ .vmem, ⟨4, _⟩ => ⟨S8000x256, .f32⟩
  | .local _ .vmem, ⟨5, _⟩ => ⟨S8000x256, .f32⟩
  | _, _ => ⟨S512x1000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x1000x2_S512000x2 : S512x1000x2.ShapeCasts S512000x2
  transposes_S256x2_S2x256_1_0 : S256x2.Transposes [1, 0] S2x256
  shapeCasts_S256_S1x256 : S256.ShapeCasts S1x256
  inb_S8000x2_S8000x1_0_0 : ∀ a, (![0, 0] : Fin 2 → Nat) a + S8000x1.size a ≤ S8000x2.size a
  h_S8000x1 : 0 < S8000x1.numel
  shapeCasts_S8000x1_S8000x1 : S8000x1.ShapeCasts S8000x1
  inb_S8000x2_S8000x1_0_1 : ∀ a, (![0, 1] : Fin 2 → Nat) a + S8000x1.size a ≤ S8000x2.size a
  inb_S2x256_S1x256_0_0 : ∀ a, (![0, 0] : Fin 2 → Nat) a + S1x256.size a ≤ S2x256.size a
  h_S1x256 : 0 < S1x256.numel
  shapeCasts_S1x256_S1x256 : S1x256.ShapeCasts S1x256
  inb_S2x256_S1x256_1_0 : ∀ a, (![1, 0] : Fin 2 → Nat) a + S1x256.size a ≤ S2x256.size a
  broadcasts_S8000x1_S8000x256 : S8000x1.Broadcasts S8000x256
  broadcasts_S1x256_S8000x256 : S1x256.Broadcasts S8000x256
  inb_S1x256_S1x256_0_0 : ∀ a, (![0, 0] : Fin 2 → Nat) a + S1x256.size a ≤ S1x256.size a
  inb_S8000x256_S8000x256_0_0 : ∀ a, (![0, 0] : Fin 2 → Nat) a + S8000x256.size a ≤ S8000x256.size a
  h_S8000x256 : 0 < S8000x256.numel
  shapeCasts_S512000x256_S512x1000x256 : S512000x256.ShapeCasts S512x1000x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S512000x2.size a
  hwx0_0 : ∀ i : grid0.Coords, EltTy.bits .f32 = 32 ∨ (Rect.block (s := S512000x2) S8000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256.size a ≤ S2x256.size a
  hwx0_1 : ∀ i : grid0.Coords, EltTy.bits .f32 = 32 ∨ (Rect.block (s := S2x256) S2x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x256.size a ≤ S512000x256.size a
  hwx0_3 : ∀ i : grid0.Coords, EltTy.bits .f32 = 32 ∨ (Rect.block (s := S512000x256) S8000x256.size (cc0_transform_3 i) (hinb0_3 i)).WholeWords (EltTy.packing .f32)

variable [Facts₀]

abbrev win0_0 : Pipeline.Window sig grid0 :=
  Pipeline.Window.ofSpec (Memref.whole main_v0) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x1000x2 : Shape := ⟨3, ![512, 1000, 2]⟩
abbrev S256x2 : Shape := ⟨2, ![256, 2]⟩
abbrev S256 : Shape := ⟨1, ![256]⟩
abbrev S512x1000x256 : Shape := ⟨3, ![512, 1000, 256]⟩
abbrev S1x1x256 : Shape := ⟨3, ![1, 1, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S512x1000x2, .f32⟩
  | .hbm, ⟨1, _⟩ => ⟨S256x2, .f32⟩
  | .hbm, ⟨2, _⟩ => ⟨S256, .f32⟩
  | .hbm, ⟨3, _⟩ => ⟨S512x1000x256, .f32⟩
  | .hbm, ⟨4, _⟩ => ⟨S1x1x256, .f32⟩
  | .hbm, ⟨5, _⟩ => ⟨S512x1000x256, .f32⟩
  | .hbm, ⟨6, _⟩ => ⟨S512x1000x256, .f32⟩
  | .hbm, ⟨7, _⟩ => ⟨S_, .f32⟩
  | .hbm, ⟨8, _⟩ => ⟨S512x1000x256, .f32⟩
  | .hbm, ⟨9, _⟩ => ⟨S512x1000x256, .f32⟩
  | _, _ => ⟨S512x1000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S512x1000x256_0_1_2 : S1x1x256.BroadcastsInDim S512x1000x256 (![0, 1, 2] : Fin 3 → Fin S512x1000x256.rank)
  bcast_S_S512x1000x256 : S_.BroadcastsInDim S512x1000x256 (![] : Fin 0 → Fin S512x1000x256.rank)
  dot_S512x1000x2_S256x2_S512x1000x256_2_1_01_0_n_n_wf : DotDims.WF S512x1000x2 S256x2 S512x1000x256 [2] [1] [0, 1] [0] [] []

variable [Facts₀]

def dot_S512x1000x2_S256x2_S512x1000x256_2_1_01_0_n_n : DotDims S512x1000x2 S256x2 S512x1000x256 where
  lhsContracting := [2]
  rhsContracting := [1]
  lhsNonContracting := [0, 1]
  rhsNonContracting := [0]
  lhsBatch := []
  rhsBatch := []
  wf := dot_S512x1000x2_S256x2_S512x1000x256_2_1_01_0_n_n_wf

class Facts : Prop extends Facts₀ where

variable [Facts]
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Body.lean ====
/-
  One block of the kernel. At a grid point the body holds 8000 rows of the flattened positions (an 8000 × 2
  block), the whole transposed weight (2 × 256) and the bias row (1 × 256). It takes the two feature columns of
  the block and the two weight rows, spreads each column along the 256 output features and each row along the
  8000 rows, multiplies, adds the two products, adds the spread bias and takes the maximum with zero. Entry
  (p, q) of what it stores is therefore

      max (x (p, 0) · w (0, q) + x (p, 1) · w (1, q) + b (0, q)) 0.
-/
import proofs.«176726_j46591805227295_2_alg».proof.Proof.Gen.KernelIdeal.Frame
import proofs.«176726_j46591805227295_2_alg».proof.Proof.LibColumn
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

/-- The stored value at (p, q) from the five loaded pieces: the two feature columns `c0`, `c1` (8000 × 1), the two
    weight rows `w0`, `w1` (1 × 256) and the bias row `b` (1 × 256). -/
theorem payload_apply (c0 c1 : Vec Ideal S8000x1 .f32) (w0 w1 b : Vec Ideal S1x256 .f32) (p : Fin 8000) (q : Fin 256) :
    k0_pay1 (F := Ideal) c0 c1 w0 w1 b (ix2 p q)
      = max (c0 (ix2 p (0 : Fin 1)) * w0 (ix2 (0 : Fin 1) q) + c1 (ix2 p (0 : Fin 1)) * w1 (ix2 (0 : Fin 1) q)
          + b (ix2 (0 : Fin 1) q)) (Ideal.ofBits .f32 0x00000000#32) := by
  unfold k0_pay1
  simp only [shapeCast_self]
  show max (broadcastTo S8000x256 c0 _ (ix2 p q) * broadcastTo S8000x256 w0 _ (ix2 p q)
      + broadcastTo S8000x256 c1 _ (ix2 p q) * broadcastTo S8000x256 w1 _ (ix2 p q)
      + broadcastTo S8000x256 b _ (ix2 p q)) _ = _
  rw [broadcastTo_a1_ab_apply c0 _ p q, broadcastTo_a1_ab_apply c1 _ p q, broadcastTo_1b_ab_apply w0 _ p q,
    broadcastTo_1b_ab_apply w1 _ p q, broadcastTo_1b_ab_apply b _ p q]
  rfl

theorem zero_off : (![0, 0] : Fin 2 → Nat) = fun _ => 0 := funext fun a => by fin_cases a <;> rfl

/-- What the body leaves in the output block, entry by entry, from the three input blocks: the feature columns
    are columns 0 and 1 of the position block, the weight rows are rows 0 and 1 of the weight block. -/
theorem out_apply (x : Vec Ideal S8000x2 .f32) (w : Vec Ideal S2x256 .f32) (b : Vec Ideal S1x256 .f32) (p : Fin 8000) (q : Fin 256) :
    out0_3 (F := Ideal) x w b (ix2 p q)
      = max (x (ix2 p (0 : Fin 2)) * w (ix2 (0 : Fin 2) q) + x (ix2 p (1 : Fin 2)) * w (ix2 (1 : Fin 2) q)
          + b (ix2 (0 : Fin 1) q)) (Ideal.ofBits .f32 0x00000000#32) := by
  unfold out0_3
  rw [View.canon_unit_zero zero_off]
  refine (payload_apply _ _ _ _ _ p q).trans ?_
  have e0 : r0_0.idx (ix2 p (0 : Fin 1)) = ix2 p (0 : Fin 2) :=
    funext fun a => Fin.ext (by match a with | ⟨0, _⟩ => show 0 + 1 * p.val = p.val; omega | ⟨1, _⟩ => rfl)
  have e1 : r0_1.idx (ix2 p (0 : Fin 1)) = ix2 p (1 : Fin 2) :=
    funext fun a => Fin.ext (by match a with | ⟨0, _⟩ => show 0 + 1 * p.val = p.val; omega | ⟨1, _⟩ => rfl)
  have e2 : r0_2.idx (ix2 (0 : Fin 1) q) = ix2 (0 : Fin 2) q :=
    funext fun a => Fin.ext (by match a with | ⟨0, _⟩ => rfl | ⟨1, _⟩ => show 0 + 1 * q.val = q.val; omega)
  have e3 : r0_3.idx (ix2 (0 : Fin 1) q) = ix2 (1 : Fin 2) q :=
    funext fun a => Fin.ext (by match a with | ⟨0, _⟩ => rfl | ⟨1, _⟩ => show 0 + 1 * q.val = q.val; omega)
  have e4 : r0_4.idx (ix2 (0 : Fin 1) q) = ix2 (0 : Fin 1) q :=
    funext fun a => Fin.ext (by match a with | ⟨0, _⟩ => rfl | ⟨1, _⟩ => show 0 + 1 * q.val = q.val; omega)
  show max (x (r0_0.idx (ix2 p (0 : Fin 1))) * w (r0_2.idx (ix2 (0 : Fin 1) q))
      + x (r0_1.idx (ix2 p (0 : Fin 1))) * w (r0_3.idx (ix2 (0 : Fin 1) q)) + b (r0_4.idx (ix2 (0 : Fin 1) q))) _ = _
  rw [e0, e1, e2, e3, e4]

end Cert.KernelIdeal.Block

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.Spec.lean ====
/-
  The mathematics of this certificate. A linear layer with two input features and 256 output features is applied
  to each of the 512 × 1000 positions of `x`, a bias is added and the result is rectified:

      y (s, n, d) = max (x (s, n, 0) · W (d, 0) + x (s, n, 1) · W (d, 1) + b d) 0.

  `embedRelu` is that function on the extended reals. `rows` is the same computation on the flattened operands a
  row-tiled kernel sees — the positions as the 512000 rows of a matrix, the weight transposed to 2 × 256, the bias
  a 1 × 256 row — and `regroup_rows` says the two are one function: regrouping the rows back to (s, n) reads
  row `s · 1000 + n`, whose two features are `x (s, n, ·)`, the transposed weight at (k, d) is `W (d, k)`, and
  the bias row at (0, d) is `b d`. No law of arithmetic is used beyond reading each operand where it is stored:
  both sides add the two products in the same order and then the bias.
-/
import Idealize.ShloMosaic.PureOps.Ideal
import Idealize.ShloMosaic.Lib.ValueIdx
import Idealize.ShloMosaic.Lib.ValueLayout
import proofs.«176726_j46591805227295_2_alg».proof.Proof.LibRegroup

noncomputable section

namespace Cert.Embed

open Idealize.ShloMosaic Idealize.ShloMosaic.ValueIdx

/-- The rectified two-feature linear layer, entry by entry: position `(s, n)`, output feature `d`. -/
def embedRelu (x : (⟨3, ![512, 1000, 2]⟩ : Shape).Idx → EReal) (w : (⟨2, ![256, 2]⟩ : Shape).Idx → EReal)
    (b : (⟨1, ![256]⟩ : Shape).Idx → EReal) : (⟨3, ![512, 1000, 256]⟩ : Shape).Idx → EReal := fun i =>
  max (x (ix3 (i 0) (i 1) (0 : Fin 2)) * w (ix2 (i 2) (0 : Fin 2))
      + x (ix3 (i 0) (i 1) (1 : Fin 2)) * w (ix2 (i 2) (1 : Fin 2)) + b (ix1 (i 2)))
    (Ideal.ofBits .f32 0x00000000#32)

/-- The same layer on flattened operands: `X` the positions as rows, `Wt` the transposed weight, `B` the bias as
    a row. Row `r`, output feature `d`. -/
def rows (X : (⟨2, ![512000, 2]⟩ : Shape).Idx → EReal) (Wt : (⟨2, ![2, 256]⟩ : Shape).Idx → EReal)
    (B : (⟨2, ![1, 256]⟩ : Shape).Idx → EReal) : (⟨2, ![512000, 256]⟩ : Shape).Idx → EReal := fun i =>
  max (X (ix2 (i 0) (0 : Fin 2)) * Wt (ix2 (0 : Fin 2) (i 1))
      + X (ix2 (i 0) (1 : Fin 2)) * Wt (ix2 (1 : Fin 2) (i 1)) + B (ix2 (0 : Fin 1) (i 1)))
    (Ideal.ofBits .f32 0x00000000#32)

/-- `rows` read at a row and a feature given as coordinates. -/
theorem rows_apply (X : (⟨2, ![512000, 2]⟩ : Shape).Idx → EReal) (Wt : (⟨2, ![2, 256]⟩ : Shape).Idx → EReal)
    (B : (⟨2, ![1, 256]⟩ : Shape).Idx → EReal) (r : Fin 512000) (d : Fin 256) :
    rows X Wt B (ix2 r d)
      = max (X (ix2 r (0 : Fin 2)) * Wt (ix2 (0 : Fin 2) d) + X (ix2 r (1 : Fin 2)) * Wt (ix2 (1 : Fin 2) d)
          + B (ix2 (0 : Fin 1) d)) (Ideal.ofBits .f32 0x00000000#32) := rfl

/-- Flatten the positions, transpose the weight, lay the bias as a row, compute by rows, regroup the rows to
    (s, n): the result is the layer itself. Entry (s, n, d) of the regrouped array is row `s · 1000 + n` at `d`. -/
theorem regroup_rows (x : (⟨3, ![512, 1000, 2]⟩ : Shape).Idx → EReal) (w : (⟨2, ![256, 2]⟩ : Shape).Idx → EReal)
    (b : (⟨1, ![256]⟩ : Shape).Idx → EReal)
    (hx : (⟨3, ![512, 1000, 2]⟩ : Shape).ShapeCasts ⟨2, ![512000, 2]⟩)
    (hw : (⟨2, ![256, 2]⟩ : Shape).Transposes [1, 0] ⟨2, ![2, 256]⟩)
    (hb : (⟨1, ![256]⟩ : Shape).ShapeCasts ⟨2, ![1, 256]⟩)
    (hy : (⟨2, ![512000, 256]⟩ : Shape).ShapeCasts ⟨3, ![512, 1000, 256]⟩) :
    shapeCast ⟨3, ![512, 1000, 256]⟩
        (rows (shapeCast ⟨2, ![512000, 2]⟩ x hx) (transpose ⟨2, ![2, 256]⟩ [1, 0] w hw) (shapeCast ⟨2, ![1, 256]⟩ b hb)) hy
      = embedRelu x w b := by
  funext i
  obtain ⟨s, n, d, rfl⟩ : ∃ (s : Fin 512) (n : Fin 1000) (d : Fin 256), i = ix3 s n d := ⟨i 0, i 1, i 2, eq_ix3 i⟩
  have hr : s.val * 1000 + n.val < 512000 := by have := s.isLt; have := n.isLt; omega
  rw [Regroup.shapeCast_splitFirst_apply _ hy s n d ⟨s.val * 1000 + n.val, hr⟩ rfl, rows_apply,
    Regroup.shapeCast_mergeFirst_apply x hx ⟨s.val * 1000 + n.val, hr⟩ (0 : Fin 2) s n rfl,
    Regroup.shapeCast_mergeFirst_apply x hx ⟨s.val * 1000 + n.val, hr⟩ (1 : Fin 2) s n rfl,
    transpose_ix2_apply w hw (0 : Fin 2) d, transpose_ix2_apply w hw (1 : Fin 2) d,
    shapeCast_a_1a_apply b hb (0 : Fin 1) d]
  rfl

end Cert.Embed

end
-- ==== Proof.Blocks.lean ====
/-
  From blocks to the whole array. The grid has 64 points; point `t` holds rows `8000 t … 8000 t + 7999` of the
  flattened positions and writes back the same rows of the 512000 × 256 result, while the weight and the bias are
  the same whole arrays at every point. So what point `t` writes back is block `t` of ONE function of the arrays the
  region finds — `Cert.Embed.rows` — and since the 64 blocks tile the result, the result array ends holding that
  function.
-/
import proofs.«176726_j46591805227295_2_alg».proof.Proof.Body
import proofs.«176726_j46591805227295_2_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The index maps over the grid: the position block and the result block are block `t` along the rows; the weight
    and the bias are always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Two functions on an 8000 × 256 block agree when they agree at every (row, column). -/
theorem ext_block {α : Type} {f g : S8000x256.Idx → α} (h : ∀ (p : Fin 8000) (q : Fin 256), f (ix2 p q) = g (ix2 p q)) : f = g :=
  funext fun j => by rw [eq_ix2 j]; exact h _ _

/-- Row `p` of the position block at point `t` is row `8000 t + p` of the flattened positions. -/
theorem rows_block (c : Dev nD) (t : Fin cfg0.N) (p : Fin 8000) (k : Fin 2) (r : Fin 512000) (hr : r.val = t.val * 8000 + p.val) :
    (iblk m c 0 t : Vec Ideal S8000x2 .f32) (ix2 p k) = (V m c main_v0 : S512000x2.Idx → EReal) (ix2 r k) := by
  obtain ⟨e0, e1, -⟩ := idx_facts t
  show V m c main_v0 (((cfg0.win 0).blk t).view.emb (ix2 p k)) = V m c main_v0 (ix2 r k)
  refine congrArg (V m c main_v0) (funext fun a => Fin.ext ?_)
  match a with
  | ⟨0, _⟩ => show win0_0.index t (0 : Fin 2) * 8000 + 1 * p.val = r.val; rw [e0, hr]; omega
  | ⟨1, _⟩ => show win0_0.index t (1 : Fin 2) * 2 + 1 * k.val = k.val; rw [e1]; omega

/-- The weight block at any point is the whole transposed weight. -/
theorem weight_block (c : Dev nD) (t : Fin cfg0.N) (k : Fin 2) (q : Fin 256) :
    (iblk m c 1 t : Vec Ideal S2x256 .f32) (ix2 k q) = (V m c main_v1 : S2x256.Idx → EReal) (ix2 k q) := by
  obtain ⟨-, -, e2, e3, -⟩ := idx_facts t
  show V m c main_v1 (((cfg0.win 1).blk t).view.emb (ix2 k q)) = V m c main_v1 (ix2 k q)
  refine congrArg (V m c main_v1) (funext fun a => Fin.ext ?_)
  match a with
  | ⟨0, _⟩ => show win0_1.index t (0 : Fin 2) * 2 + 1 * k.val = k.val; rw [e2]; omega
  | ⟨1, _⟩ => show win0_1.index t (1 : Fin 2) * 256 + 1 * q.val = q.val; rw [e3]; omega

/-- The bias block at any point is the whole bias row. -/
theorem bias_block (c : Dev nD) (t : Fin cfg0.N) (u : Fin 1) (q : Fin 256) :
    (iblk m c 2 t : Vec Ideal S1x256 .f32) (ix2 u q) = (V m c main_v2 : S1x256.Idx → EReal) (ix2 u q) := by
  obtain ⟨-, -, -, -, e4, e5, -⟩ := idx_facts t
  show V m c main_v2 (((cfg0.win 2).blk t).view.emb (ix2 u q)) = V m c main_v2 (ix2 u q)
  refine congrArg (V m c main_v2) (funext fun a => Fin.ext ?_)
  match a with
  | ⟨0, _⟩ => show win0_2.index t (0 : Fin 2) * 1 + 1 * u.val = u.val; rw [e4]; omega
  | ⟨1, _⟩ => show win0_2.index t (1 : Fin 2) * 256 + 1 * q.val = q.val; rw [e5]; omega

/-- What point `t` writes back is block `t` of `rows` of the arrays as the region finds them. -/
theorem flushed_eq (c : Dev nD) (t : Fin cfg0.N) :
    (dats m 0 c).flushed 3 t
      = ((cfg0.win 3).blk t).view.read (Elt Ideal) (Cert.Embed.rows (V m c main_v0) (V m c main_v1) (V m c main_v2)) := by
  show (cfg0.win 3).cut (grid0.coords t) ((dats m 0 c).after 3 t) = _
  rw [after0_3]
  refine ext_block fun p q => ?_
  have hN : cfg0.N = 64 := N_0
  have hr : t.val * 8000 + p.val < 512000 := by have := t.isLt; have := p.isLt; omega
  obtain ⟨-, -, -, -, -, -, e6, e7⟩ := idx_facts t
  have eo : ((cfg0.win 3).blk t).view.emb (ix2 p q) = ix2 (⟨t.val * 8000 + p.val, hr⟩ : Fin 512000) q :=
    funext fun a => Fin.ext (by
      match a with
      | ⟨0, _⟩ => show win0_3.index t (0 : Fin 2) * 8000 + 1 * p.val = t.val * 8000 + p.val; rw [e6]; omega
      | ⟨1, _⟩ => show win0_3.index t (1 : Fin 2) * 256 + 1 * q.val = q.val; rw [e7]; omega)
  show out0_3 (iblk m c 0 t) (iblk m c 1 t) (iblk m c 2 t) (ix2 p q)
    = Cert.Embed.rows (V m c main_v0) (V m c main_v1) (V m c main_v2) (((cfg0.win 3).blk t).view.emb (ix2 p q))
  refine (Block.out_apply (iblk m c 0 t) (iblk m c 1 t) (iblk m c 2 t) p q).trans ?_
  rw [eo, Cert.Embed.rows_apply, rows_block m c t p (0 : Fin 2) ⟨t.val * 8000 + p.val, hr⟩ rfl,
    rows_block m c t p (1 : Fin 2) ⟨t.val * 8000 + p.val, hr⟩ rfl, weight_block m c t (0 : Fin 2) q,
    weight_block m c t (1 : Fin 2) q, bias_block m c t (0 : Fin 1) q]

/-- An entry of the result array is in point `t`'s block iff each coordinate is in the block's range on its axis. -/
theorem mem_blk (t : Fin cfg0.N) (i : S512000x256.Idx) :
    i ∈ ((cfg0.win 3).blk t).view.set ↔ ∀ a : Fin 2, win0_3.index t a * S8000x256.size a ≤ (i a).val
      ∧ (i a).val < win0_3.index t a * S8000x256.size a + S8000x256.size a := by
  show i ∈ ((View.whole main_v3).slice (win0_3.rect t)).set ↔ _
  rw [View.set_slice_whole, Rect.mem_set_unit]
  exact Iff.rfl

/-- Row `r` is in the block of point `r / 8000`: the 64 blocks tile the result. -/
theorem cover (i : S512000x256.Idx) : ∃ t : Fin cfg0.N, (cfg0.win 3).flush t = true ∧ i ∈ ((cfg0.win 3).blk t).view.set := by
  have hN : cfg0.N = 64 := N_0
  have hi0 : (i 0).val < 512000 := (i 0).isLt
  have hi1 : (i 1).val < 256 := (i 1).isLt
  have ht : (i 0).val / 8000 < cfg0.N := by rw [hN]; omega
  obtain ⟨-, -, -, -, -, -, e6, e7⟩ := idx_facts ⟨(i 0).val / 8000, ht⟩
  refine ⟨⟨(i 0).val / 8000, ht⟩, flush0_3 _, ?_⟩
  rw [mem_blk]
  intro a
  match a with
  | ⟨0, _⟩ =>
    show win0_3.index ⟨(i 0).val / 8000, ht⟩ (0 : Fin 2) * 8000 ≤ (i 0).val
      ∧ (i 0).val < win0_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win0_3.index ⟨(i 0).val / 8000, ht⟩ (1 : Fin 2) * 256 ≤ (i 1).val
      ∧ (i 1).val < win0_3.index ⟨(i 0).val / 8000, ht⟩ (1 : Fin 2) * 256 + 256
    rw [e7]; omega

/-- The result array after the region is `rows` of the arrays the region finds. -/
theorem final (c : Dev nD) :
    (dats m 0 c).arrAt 3 cfg0.N = Cert.Embed.rows (V m c main_v0) (V m c main_v1) (V m c main_v2) :=
  (dats m 0 c).arrAt_eq_of_cover 3 _ (fun t _ => flushed_eq m c t) (cover)

end Cert.KernelIdeal.Blocks

end
-- ==== Proof.Whole.lean ====
/-
  The whole kernel program. Before the region the host flattens the positions to 512000 rows, transposes the
  weight and lays the bias as a row; the region leaves `rows` of those three arrays in its result array; after the
  region the host regroups the 512000 rows to 512 × 1000. So the program's result is the regrouped `rows` of the
  flattened arguments, which is the rectified linear layer of the arguments themselves (`Cert.Embed.regroup_rows`).
-/
import proofs.«176726_j46591805227295_2_alg».proof.Proof.Blocks
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The region finds the positions flattened to rows, -/
theorem entry_rows (c : Dev nD) : (V m c main_v0 : S512000x2.Idx → EReal)
    = shapeCast S512000x2 (m ((c : Thread nD τ).loc main_arg0)) shapeCasts_S512x1000x2_S512000x2 := by
  show StableHlo.after hostOps0 (fun b => m (c, b)) (Proc.devRef .tc main_v0) = _
  after_results <;> rfl

/-- the weight transposed, -/
theorem entry_weight (c : Dev nD) : (V m c main_v1 : S2x256.Idx → EReal)
    = transpose S2x256 [1, 0] (m ((c : Thread nD τ).loc main_arg1)) transposes_S256x2_S2x256_1_0 := by
  show StableHlo.after hostOps0 (fun b => m (c, b)) (Proc.devRef .tc main_v1) = _
  after_results <;> rfl

/-- and the bias as a row. -/
theorem entry_bias (c : Dev nD) : (V m c main_v2 : S1x256.Idx → EReal)
    = shapeCast S1x256 (m ((c : Thread nD τ).loc main_arg2)) shapeCasts_S256_S1x256 := by
  show StableHlo.after hostOps0 (fun b => m (c, b)) (Proc.devRef .tc main_v2) = _
  after_results <;> rfl

/-- The program's result, after the host regroups the region's array, is the rectified linear layer of the
    arguments. -/
theorem result_eq (c : Dev nD) :
    Pipeline.afterTail₀ cfgs (dats m) 0 (V0 m) [hostOps1] c main_v4
      = Cert.Embed.embedRelu (m ((c : Thread nD τ).loc main_arg0)) (m ((c : Thread nD τ).loc main_arg1))
          (m ((c : Thread nD τ).loc main_arg2)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = Cert.Embed.rows (V m c main_v0) (V m c main_v1) (V m c main_v2) :=
    (Pipeline.withArrays_arr spec0 launch0.win.arr_inj c _ _ 3).trans (Blocks.final m c)
  rw [hw, entry_rows m c, entry_weight m c, entry_bias m c]
  exact Cert.Embed.regroup_rows _ _ _ _ _ _ _

/-- The kernel program's run, read: every weakly fair execution terminates with the result array at the rectified
    linear layer of the argument arrays, and the arguments as they were. -/
theorem run : θ_run defs (onTc (τ := τ) (main (F := Ideal))) ⟨m, fun _ => 0, ρ⟩ fun r => ∀ c : Dev nD,
      r.2.mem ((c.tc : Thread nD τ).loc main_v4)
        = Cert.Embed.embedRelu (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference computes the layer directly: a contraction of the feature axis of `x` with the feature axis of `W`
  (two terms), the bias spread over the positions, a sum, and a maximum with zero. Read at an entry (s, n, d) the
  contraction is `x (s, n, 0) · W (d, 0) + x (s, n, 1) · W (d, 1)`, the spread bias is `b d`, and the maximum is
  taken with the zero word: the reference's result is `embedRelu`.
-/
import proofs.«176726_j46591805227295_2_alg».proof.Proof.Gen.ReferenceIdeal.Read
import proofs.«176726_j46591805227295_2_alg».proof.Proof.Spec

noncomputable section

namespace Cert.ReferenceIdeal.RefValue

open Cert.ReferenceIdeal Cert.ReferenceIdeal.Read Idealize.ShloMosaic Idealize.ShloMosaic.ValueIdx

/-- The reference's last stage, as a function of the three argument arrays, is the rectified linear layer. -/
theorem result_eq (x : (⟨S512x1000x2, .f32⟩ : BufTy).Contents (Elt Ideal)) (w : (⟨S256x2, .f32⟩ : BufTy).Contents (Elt Ideal))
    (b : (⟨S256, .f32⟩ : BufTy).Contents (Elt Ideal)) :
    val_main_v4 (F := Ideal) x w b = Cert.Embed.embedRelu x w b := by
  funext i
  obtain ⟨s, n, d, rfl⟩ : ∃ (s : Fin 512) (n : Fin 1000) (d : Fin 256), i = ix3 s n d := ⟨i 0, i 1, i 2, eq_ix3 i⟩
  have el0 : lidx_main_v0 (ix3 s n d) (0 : Fin 2) = ix3 s n (0 : Fin 2) :=
    funext fun a => Fin.ext (by match a with | ⟨0, _⟩ => rfl | ⟨1, _⟩ => rfl | ⟨2, _⟩ => rfl)
  have el1 : lidx_main_v0 (ix3 s n d) (1 : Fin 2) = ix3 s n (1 : Fin 2) :=
    funext fun a => Fin.ext (by match a with | ⟨0, _⟩ => rfl | ⟨1, _⟩ => rfl | ⟨2, _⟩ => rfl)
  have er0 : ridx_main_v0 (ix3 s n d) (0 : Fin 2) = ix2 d (0 : Fin 2) :=
    funext fun a => Fin.ext (by match a with | ⟨0, _⟩ => rfl | ⟨1, _⟩ => rfl)
  have er1 : ridx_main_v0 (ix3 s n d) (1 : Fin 2) = ix2 d (1 : Fin 2) :=
    funext fun a => Fin.ext (by match a with | ⟨0, _⟩ => rfl | ⟨1, _⟩ => rfl)
  have eb : idx_main_v1 (idx_main_v2 (ix3 s n d)) = ix1 d :=
    funext fun a => Fin.ext (by match a with | ⟨0, _⟩ => rfl)
  rw [val_main_v4_apply, val_main_v3_apply, val_main_v0_apply, val_main_v2_apply, val_main_v1_apply,
    val_main_call0_v0_apply, val_main_call0_cst_apply, Fin.sum_univ_two, el0, el1, er0, er1, eb]
  rfl

end Cert.ReferenceIdeal.RefValue

end
-- ==== Proof.lean ====
/-
  The certificate's claims. The kernel computes, 8000 flattened positions at a time, a rectified linear layer with
  two input features, `max (x₀ · W(d, 0) + x₁ · W(d, 1) + b d) 0`, by two broadcast products on the vector unit;
  the reference contracts the feature axis of `x` with that of `W`, adds the bias and rectifies. On the extended
  reals both are the same function of the three argument arrays, entry by entry: the contraction over two
  features is the sum of the same two products in the same order, so no law beyond reading each operand where it
  is stored is needed, and the precondition (finite inputs) is not used.

  `Cert.Embed.embedRelu` (Proof/Spec.lean) is that function. The kernel program's run ends with its result there
  (Proof/Whole.lean, over the block-by-block reading of Proof/Blocks.lean and Proof/Body.lean), the reference's run
  ends with its result there (Proof/RefValue.lean); the frames of the two kernel programs and the reference's run
  are the generated ones; the idealization rewrote nothing, so `preserves` is trivial.
-/
import proofs.«176726_j46591805227295_2_alg».proof.Defs
import proofs.«176726_j46591805227295_2_alg».proof.Proof.Gen.Kernel
import proofs.«176726_j46591805227295_2_alg».proof.Proof.Gen.Kernel.Skeleton
import proofs.«176726_j46591805227295_2_alg».proof.Proof.Gen.Kernel.Launch
import proofs.«176726_j46591805227295_2_alg».proof.Proof.Gen.Kernel.Points
import proofs.«176726_j46591805227295_2_alg».proof.Proof.Gen.Kernel.Frame
import proofs.«176726_j46591805227295_2_alg».proof.Proof.Gen.KernelIdeal
import proofs.«176726_j46591805227295_2_alg».proof.Proof.Gen.KernelIdeal.Skeleton
import proofs.«176726_j46591805227295_2_alg».proof.Proof.Gen.KernelIdeal.Launch
import proofs.«176726_j46591805227295_2_alg».proof.Proof.Gen.KernelIdeal.Points
import proofs.«176726_j46591805227295_2_alg».proof.Proof.Gen.KernelIdeal.Frame
import proofs.«176726_j46591805227295_2_alg».proof.Proof.Gen.ReferenceIdeal
import proofs.«176726_j46591805227295_2_alg».proof.Proof.Gen.ReferenceIdeal.Run
import proofs.«176726_j46591805227295_2_alg».proof.Proof.Gen.ReferenceIdeal.Read
import proofs.«176726_j46591805227295_2_alg».proof.Proof.Gen.Pre_finite_inputs
import proofs.«176726_j46591805227295_2_alg».proof.Proof.Whole
import proofs.«176726_j46591805227295_2_alg».proof.Proof.RefValue
import Idealize.ShloMosaic.Adequacy
import Idealize.ShloMosaic.Init

noncomputable section

namespace Cert.Proof

open Idealize.ShloMosaic Idealize.SL.Sem

/-- The word-level kernel program runs, faults nowhere and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with their result at the rectified linear layer of the argument arrays, which agree. -/
theorem algebraic : Cert.algebraic_KernelIdeal_ReferenceIdeal := by
  intro m ρ m' ρ' _ hagree
  refine ⟨fun c => Cert.Embed.embedRelu
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
